-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024 : Shape := ⟨2, ![128, 1024]⟩
abbrev S128x1024x1024 : Shape := ⟨3, ![128, 1024, 1024]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S128x1024x1024 : S_.BroadcastsInDim S128x1024x1024 (![] : Fin 0 → Fin S128x1024x1024.rank)
  reducesTo_S128x1024x1024_S_d0_1_2 : S128x1024x1024.ReducesTo [0, 1, 2] S_

variable [Facts]

def fn {F : FTy → Type} [FloatOps F] (main_arg0 : FVec F S128x1024 .f32) (main_arg1 : FVec F S128x1024x1024 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S128x1024x1024 .f32 := Host.absf main_arg1
  let main_cst_0 : FVec F S_ .f32 := constant S_ .f32 0x7F800000#32
  let main_v5 : FVec F S128x1024x1024 .f32 := broadcastInDim S128x1024x1024 ![] bcast_S_S128x1024x1024 main_cst_0
  let main_v6 : IVec S128x1024x1024 1 := cmpf .olt main_v4 main_v5
  let main_c_1 : IVec S_ 1 := constantI S_ 1 1#1
  let main_v7 : IVec S_ 1 := (fun x v => Host.reduce IntOp.andi x v reducesTo_S128x1024x1024_S_d0_1_2 h_S_) main_v6 main_c_1
  let main_v8 : IVec S_ 1 := andi main_v3 main_v7
  main_v8
-- ==== Kernel.lean ====
abbrev S128x1024 : Shape := ⟨2, ![128, 1024]⟩
abbrev S128x1024x1024 : Shape := ⟨3, ![128, 1024, 1024]⟩
abbrev S128x128x1024 : Shape := ⟨3, ![128, 128, 1024]⟩
abbrev S1x1024x1024 : Shape := ⟨3, ![1, 1024, 1024]⟩
abbrev S1x128x1024 : Shape := ⟨3, ![1, 128, 1024]⟩
abbrev S1024x1024 : Shape := ⟨2, ![1024, 1024]⟩
abbrev S128 : Shape := ⟨1, ![128]⟩
abbrev S128x1 : Shape := ⟨2, ![128, 1]⟩

abbrev nBuf : Space → Nat
  | .hbm => 3
  | .vmem => 5
  | .smem => 0
  | _ => 0

abbrev bufTy : (tb : Table) → Fin (tcTables nBuf tb) → BufTy
  | .hbm, ⟨0, _⟩ => ⟨S128x1024, .f32⟩
  | .hbm, ⟨1, _⟩ => ⟨S128x1024x1024, .f32⟩
  | .hbm, ⟨2, _⟩ => ⟨S128x128x1024, .f32⟩
  | .local _ .vmem, ⟨0, _⟩ => ⟨S128x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x128x1024, .f32⟩
  | .local _ .vmem, ⟨4, _⟩ => ⟨S1x128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S128x1024_S128x1024_0_0 : ∀ a, (![0, 0] : Fin 2 → Nat) a + S128x1024.size a ≤ S128x1024.size a
  h_S128x1024 : 0 < S128x1024.numel
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S128x1024_S128 : S128x1024.Reduces [1] S128
  shapeCasts_S128_S128x1 : S128.ShapeCasts S128x1
  broadcasts_S128x1_S128x1024 : S128x1.Broadcasts S128x1024
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  shapeCasts_S128x1024_S1x128x1024 : S128x1024.ShapeCasts S1x128x1024
  dot_S128x1024_S1024x1024_S128x1024_1_1_0_0_n_n_wf : DotDims.WF S128x1024 S1024x1024 S128x1024 [1] [1] [0] [0] [] []
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S128x1024.size a
  hwx0_0 : ∀ i : grid0.Coords, EltTy.bits .f32 = 32 ∨ (Rect.block (s := S128x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S128x1024x1024.size a
  hwx0_1 : ∀ i : grid0.Coords, EltTy.bits .f32 = 32 ∨ (Rect.block (s := S128x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1024.size a ≤ S128x128x1024.size a
  hwx0_2 : ∀ i : grid0.Coords, EltTy.bits .f32 = 32 ∨ (Rect.block (s := S128x128x1024) S1x128x1024.size (cc0_transform_2 i) (hinb0_2 i)).WholeWords (EltTy.packing .f32)

variable [Facts₀]

def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg0) S128x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x1024 : Shape := ⟨2, ![128, 1024]⟩
abbrev S128x1024x1024 : Shape := ⟨3, ![128, 1024, 1024]⟩
abbrev S128x1024x128 : Shape := ⟨3, ![128, 1024, 128]⟩
abbrev S128x128x1024 : Shape := ⟨3, ![128, 128, 1024]⟩
abbrev S_ : Shape := ⟨0, ![]⟩
abbrev S128x128 : Shape := ⟨2, ![128, 128]⟩
abbrev S128x128x1 : Shape := ⟨3, ![128, 128, 1]⟩

abbrev nBuf : Space → Nat
  | .hbm => 20
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024x1024, .f32⟩
  | .hbm, ⟨2, _⟩ => ⟨S128x1024x128, .f32⟩
  | .hbm, ⟨3, _⟩ => ⟨S128x128x1024, .f32⟩
  | .hbm, ⟨4, _⟩ => ⟨S128x128x1024, .f32⟩
  | .hbm, ⟨5, _⟩ => ⟨S_, .f32⟩
  | .hbm, ⟨6, _⟩ => ⟨S128x128, .f32⟩
  | .hbm, ⟨7, _⟩ => ⟨S_, .f32⟩
  | .hbm, ⟨8, _⟩ => ⟨S128x128, .f32⟩
  | .hbm, ⟨9, _⟩ => ⟨S128x128, .f32⟩
  | .hbm, ⟨10, _⟩ => ⟨S128x128x1, .f32⟩
  | .hbm, ⟨11, _⟩ => ⟨S128x128x1024, .f32⟩
  | .hbm, ⟨12, _⟩ => ⟨S128x128x1024, .f32⟩
  | .hbm, ⟨13, _⟩ => ⟨S128x128x1024, .f32⟩
  | .hbm, ⟨14, _⟩ => ⟨S_, .f32⟩
  | .hbm, ⟨15, _⟩ => ⟨S128x128, .f32⟩
  | .hbm, ⟨16, _⟩ => ⟨S128x128x1, .f32⟩
  | .hbm, ⟨17, _⟩ => ⟨S128x128x1024, .f32⟩
  | .hbm, ⟨18, _⟩ => ⟨S128x128x1024, .f32⟩
  | .hbm, ⟨19, _⟩ => ⟨S128x128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]

class Facts₀ : Prop where
  transposes_S128x1024x128_S128x128x1024_0_2_1 : S128x1024x128.Transposes [0, 2, 1] S128x128x1024
  reducesTo_S128x128x1024_S128x128_d2 : S128x128x1024.ReducesTo [2] S128x128
  h_S_ : 0 < S_.numel
  bcast_S_S128x128 : S_.BroadcastsInDim S128x128 (![] : Fin 0 → Fin S128x128.rank)
  bcast_S128x128_S128x128x1_0_1 : S128x128.BroadcastsInDim S128x128x1 (![0, 1] : Fin 2 → Fin S128x128x1.rank)
  bcast_S128x128x1_S128x128x1024_0_1_2 : S128x128x1.BroadcastsInDim S128x128x1024 (![0, 1, 2] : Fin 3 → Fin S128x128x1024.rank)
  dot_S128x1024x1024_S128x1024_S128x1024x128_2_1_01_0_n_n_wf : DotDims.WF S128x1024x1024 S128x1024 S128x1024x128 [2] [1] [0, 1] [0] [] []
  dot_S128x128x1024_S128x1024x1024_S128x128x1024_2_1_1_2_0_0_wf : DotDims.WF S128x128x1024 S128x1024x1024 S128x128x1024 [2] [1] [1] [2] [0] [0]

variable [Facts₀]

def dot_S128x1024x1024_S128x1024_S128x1024x128_2_1_01_0_n_n : DotDims S128x1024x1024 S128x1024 S128x1024x128 where
  lhsContracting := [2]
  rhsContracting := [1]
  lhsNonContracting := [0, 1]
  rhsNonContracting := [0]
  lhsBatch := []
  rhsBatch := []
  wf := dot_S128x1024x1024_S128x1024_S128x1024x128_2_1_01_0_n_n_wf
def dot_S128x128x1024_S128x1024x1024_S128x128x1024_2_1_1_2_0_0 : DotDims S128x128x1024 S128x1024x1024 S128x128x1024 where
  lhsContracting := [2]
  rhsContracting := [1]
  lhsNonContracting := [1]
  rhsNonContracting := [2]
  lhsBatch := [0]
  rhsBatch := [0]
  wf := dot_S128x128x1024_S128x1024x1024_S128x128x1024_2_1_1_2_0_0_wf

class Facts : Prop extends Facts₀ where

variable [Facts]
-- ==== Proof.LibLastAxisSoftmax.lean ====
/-
  Softmax along the last axis, read at an index, on the extended reals.

  A row of extended reals `f : Fin c → EReal` has the softmax
  `exp (f l - M) / ∑ k, exp (f k - M)`, with `M` the row's maximum taken from the word of minus
  infinity upward (`softmaxAt`). Two programs compute it, each along the LAST axis of an array:
  * a vector program on a rank-3 array [a, b, c]: the maximum and the sum are lane reductions to
    [a, b], each kept as a unit axis [a, b, 1] and broadcast back to [a, b, c] (`vecSoftmax3`);
  * a host program on a rank-4 array [a, b, g, c]: the maximum and the sum are reductions over
    axis 3 to [a, b, g], the maximum joined once more with minus infinity (which changes nothing),
    each broadcast back through [a, b, g, 1] (`hostSoftmax4`).
  Read at an index both are `softmaxAt` of the row through that index
  (`vecSoftmax3_apply`, `hostSoftmax4_apply`): no law of arithmetic is used beyond
  `max b (fold max b f) = fold max b f` and `0 + s = s`.
-/
import Idealize.ShloMosaic.PureOps.Ideal.Laws
import Idealize.ShloMosaic.Lib.ValueIdx
import Idealize.ShloMosaic.Lib.Pipeline.Value

noncomputable section

open scoped BigOperators

namespace Idealize.ShloMosaic.LastAxisSoftmax

open Idealize.ShloMosaic Idealize.ShloMosaic.ValueIdx

/-- The extended real that the f32 word of minus infinity denotes; it is only ever compared with itself. -/
abbrev negInf : EReal := Ideal.ofBits .f32 0xFF800000#32

/-- The softmax of the row `f` at its member `l`: the maximum is folded from `negInf`. -/
def softmaxAt {c : Nat} (f : Fin c → EReal) (l : Fin c) : EReal :=
  Ideal.div (Ideal.exp (f l - (Finset.univ : Finset (Fin c)).fold max negInf f))
    (∑ k : Fin c, Ideal.exp (f k - (Finset.univ : Finset (Fin c)).fold max negInf f))

/-! ## The vector program, rank 3 -/

section Vec
variable {n0 n1 n2 : Nat}

/-- A reduced array [a, b], given a unit last axis and broadcast along it to [a, b, c], reads at
    (p, g, l) what it held at (p, g). -/
theorem keepdims3_apply {α : Type} (v : (⟨2, ![n0, n1]⟩ : Shape).Idx → α)
    (hc : (⟨2, ![n0, n1]⟩ : Shape).ShapeCasts ⟨3, ![n0, n1, 1]⟩)
    (hb : (⟨3, ![n0, n1, 1]⟩ : Shape).Broadcasts ⟨3, ![n0, n1, n2]⟩)
    (p : Fin n0) (g : Fin n1) (l : Fin n2) :
    broadcastTo ⟨3, ![n0, n1, n2]⟩ (shapeCast ⟨3, ![n0, n1, 1]⟩ v hc) hb (ix3 p g l) = v (ix2 p g) := by
  rw [broadcastTo_apply _ hb (ix3 p g l) (ix3 p g (⟨0, Nat.one_pos⟩ : Fin 1)) (fun a => by
    match a with
    | ⟨0, _⟩ =>
      show p.val = if n0 = 1 then 0 else p.val
      split
      · have := p.isLt; omega
      · rfl
    | ⟨1, _⟩ =>
      show g.val = if n1 = 1 then 0 else g.val
      split
      · have := g.isLt; omega
      · rfl
    | ⟨2, _⟩ =>
      show 0 = if (1 : Nat) = 1 then 0 else l.val
      rw [if_pos rfl])]
  exact shapeCast_apply v hc _ (ix2 p g) (by
    rw [Shape.rowMajor_val_two, Shape.rowMajor_val_three]
    show p.val * n1 + g.val = (p.val * n1 + g.val) * 1 + 0
    omega)

/-- The index of [a, b, c] over (p, g) of [a, b] with `k` on the reduced last axis is (p, g, k). -/
theorem lift3 (hr : (⟨3, ![n0, n1, n2]⟩ : Shape).Reduces [2] ⟨2, ![n0, n1]⟩) (p : Fin n0) (g : Fin n1) (k : Fin n2) :
    hr.lift (ix2 p g) k = ix3 p g k := by
  funext a
  apply Fin.ext
  match a with
  | ⟨0, _⟩ => rfl
  | ⟨1, _⟩ => rfl
  | ⟨2, _⟩ => rfl

variable {F : FTy → Type} [FloatOps F]

/-- The vector program: subtract the lane maximum, exponentiate, divide by the lane sum. -/
def vecSoftmax3 (X : FVec F ⟨3, ![n0, n1, n2]⟩ .f32)
    (hr : (⟨3, ![n0, n1, n2]⟩ : Shape).Reduces [2] ⟨2, ![n0, n1]⟩)
    (hc : (⟨2, ![n0, n1]⟩ : Shape).ShapeCasts ⟨3, ![n0, n1, 1]⟩)
    (hb : (⟨3, ![n0, n1, 1]⟩ : Shape).Broadcasts ⟨3, ![n0, n1, n2]⟩)
    (hφ : FKind.Formats .f32) (hmax : (0xFF800000#32 : BitVec 32) = FKind.maximumf.neutral .f32 hφ)
    (hadd : (0x00000000#32 : BitVec 32) = FKind.add.neutral .f32 hφ) : FVec F ⟨3, ![n0, n1, n2]⟩ .f32 :=
  divf
    (exp (subf X (broadcastTo ⟨3, ![n0, n1, n2]⟩ (shapeCast ⟨3, ![n0, n1, 1]⟩
      (multiReduction .maximumf [2] ⟨2, ![n0, n1]⟩ X 0xFF800000#32 hr hφ hmax) hc) hb)))
    (broadcastTo ⟨3, ![n0, n1, n2]⟩ (shapeCast ⟨3, ![n0, n1, 1]⟩
      (multiReduction .add [2] ⟨2, ![n0, n1]⟩
        (exp (subf X (broadcastTo ⟨3, ![n0, n1, n2]⟩ (shapeCast ⟨3, ![n0, n1, 1]⟩
          (multiReduction .maximumf [2] ⟨2, ![n0, n1]⟩ X 0xFF800000#32 hr hφ hmax) hc) hb)))
        0x00000000#32 hr hφ hadd) hc) hb)

end Vec

/-- Read at (p, g, l), the vector program is the softmax of row (p, g, ·) at `l`. -/
theorem vecSoftmax3_apply {n0 n1 n2 : Nat} (X : FVec Ideal ⟨3, ![n0, n1, n2]⟩ .f32)
    (hr : (⟨3, ![n0, n1, n2]⟩ : Shape).Reduces [2] ⟨2, ![n0, n1]⟩)
    (hc : (⟨2, ![n0, n1]⟩ : Shape).ShapeCasts ⟨3, ![n0, n1, 1]⟩)
    (hb : (⟨3, ![n0, n1, 1]⟩ : Shape).Broadcasts ⟨3, ![n0, n1, n2]⟩)
    (hφ : FKind.Formats .f32) (hmax : (0xFF800000#32 : BitVec 32) = FKind.maximumf.neutral .f32 hφ)
    (hadd : (0x00000000#32 : BitVec 32) = FKind.add.neutral .f32 hφ) (p : Fin n0) (g : Fin n1) (l : Fin n2) :
    vecSoftmax3 (F := Ideal) X hr hc hb hφ hmax hadd (ix3 p g l) = softmaxAt (fun k : Fin n2 => X (ix3 p g k)) l := by
  -- the lane maximum at (p, g): the fold of `max` over the row
  have hM : multiReduction .maximumf [2] ⟨2, ![n0, n1]⟩ X 0xFF800000#32 hr hφ hmax (ix2 p g)
      = (Finset.univ : Finset (Fin n2)).fold max negInf (fun k : Fin n2 => X (ix3 p g k)) := by
    rw [Ideal.multiReduction_maximumf_single]
    exact congrArg (fun f : Fin n2 → EReal => (Finset.univ : Finset (Fin n2)).fold max negInf f)
      (funext fun k => congrArg X (lift3 hr p g k))
  -- the exponentials at (p, g, k)
  have hE : ∀ k : Fin n2,
      exp (subf X (broadcastTo ⟨3, ![n0, n1, n2]⟩ (shapeCast ⟨3, ![n0, n1, 1]⟩
        (multiReduction .maximumf [2] ⟨2, ![n0, n1]⟩ X 0xFF800000#32 hr hφ hmax) hc) hb)) (ix3 p g k)
      = Ideal.exp (X (ix3 p g k) - (Finset.univ : Finset (Fin n2)).fold max negInf (fun k : Fin n2 => X (ix3 p g k))) := by
    intro k
    show Ideal.exp (X (ix3 p g k) - broadcastTo ⟨3, ![n0, n1, n2]⟩ (shapeCast ⟨3, ![n0, n1, 1]⟩
        (multiReduction .maximumf [2] ⟨2, ![n0, n1]⟩ X 0xFF800000#32 hr hφ hmax) hc) hb (ix3 p g k)) = _
    rw [keepdims3_apply, hM]
  unfold vecSoftmax3 softmaxAt
  show Ideal.div _ _ = _
  rw [hE l, keepdims3_apply, Ideal.multiReduction_add_single]
  refine congrArg (Ideal.div _) ?_
  exact Finset.sum_congr rfl fun k _ => by rw [lift3 hr p g k, hE k]

/-! ## The host program, rank 4 -/

section Host
variable {n0 n1 n2 n3 : Nat}

/-- A reduced array [a, b, g], broadcast to [a, b, g, 1] and then along the unit axis to [a, b, g, c],
    reads at (a, b, g, l) what it held at (a, b, g). -/
theorem keepdims4_apply {α : Type} (v : (⟨3, ![n0, n1, n2]⟩ : Shape).Idx → α)
    (h1 : (⟨3, ![n0, n1, n2]⟩ : Shape).BroadcastsInDim ⟨4, ![n0, n1, n2, 1]⟩ (![0, 1, 2] : Fin 3 → Fin 4))
    (h2 : (⟨4, ![n0, n1, n2, 1]⟩ : Shape).BroadcastsInDim ⟨4, ![n0, n1, n2, n3]⟩ (![0, 1, 2, 3] : Fin 4 → Fin 4))
    (a : Fin n0) (b : Fin n1) (g : Fin n2) (l : Fin n3) :
    broadcastInDim ⟨4, ![n0, n1, n2, n3]⟩ ![0, 1, 2, 3] h2 (broadcastInDim ⟨4, ![n0, n1, n2, 1]⟩ ![0, 1, 2] h1 v) (ix4 a b g l)
      = v (ix3 a b g) := by
  rw [broadcastInDim_apply _ h2 _ (ix4 a b g l) (ix4 a b g (⟨0, Nat.one_pos⟩ : Fin 1)) (fun d => by
    match d with
    | ⟨0, _⟩ =>
      show a.val = if n0 = 1 then 0 else a.val
      split
      · have := a.isLt; omega
      · rfl
    | ⟨1, _⟩ =>
      show b.val = if n1 = 1 then 0 else b.val
      split
      · have := b.isLt; omega
      · rfl
    | ⟨2, _⟩ =>
      show g.val = if n2 = 1 then 0 else g.val
      split
      · have := g.isLt; omega
      · rfl
    | ⟨3, _⟩ =>
      show 0 = if (1 : Nat) = 1 then 0 else l.val
      rw [if_pos rfl])]
  exact broadcastInDim_apply _ h1 v _ (ix3 a b g) (fun d => by
    match d with
    | ⟨0, _⟩ =>
      show a.val = if n0 = 1 then 0 else a.val
      split
      · have := a.isLt; omega
      · rfl
    | ⟨1, _⟩ =>
      show b.val = if n1 = 1 then 0 else b.val
      split
      · have := b.isLt; omega
      · rfl
    | ⟨2, _⟩ =>
      show g.val = if n2 = 1 then 0 else g.val
      split
      · have := g.isLt; omega
      · rfl)

/-- The index of [a, b, g, c] over (a, b, g) with `k` on the reduced last axis is (a, b, g, k). -/
theorem lift4 (hr : (⟨4, ![n0, n1, n2, n3]⟩ : Shape).Reduces [3] ⟨3, ![n0, n1, n2]⟩) (a : Fin n0) (b : Fin n1) (g : Fin n2)
    (k : Fin n3) : hr.lift (ix3 a b g) k = ix4 a b g k := by
  funext d
  apply Fin.ext
  match d with
  | ⟨0, _⟩ => rfl
  | ⟨1, _⟩ => rfl
  | ⟨2, _⟩ => rfl
  | ⟨3, _⟩ => rfl

variable {F : FTy → Type} [FloatOps F]

/-- The host program: the maximum over axis 3 joined with minus infinity, subtracted, exponentiated, divided by
    the sum over axis 3 (from zero). -/
def hostSoftmax4 (X : FVec F ⟨4, ![n0, n1, n2, n3]⟩ .f32)
    (hred : (⟨4, ![n0, n1, n2, n3]⟩ : Shape).ReducesTo [3] ⟨3, ![n0, n1, n2]⟩)
    (hu : 0 < (⟨0, ![]⟩ : Shape).numel)
    (h0 : (⟨0, ![]⟩ : Shape).BroadcastsInDim ⟨3, ![n0, n1, n2]⟩ (![] : Fin 0 → Fin 3))
    (h1 : (⟨3, ![n0, n1, n2]⟩ : Shape).BroadcastsInDim ⟨4, ![n0, n1, n2, 1]⟩ (![0, 1, 2] : Fin 3 → Fin 4))
    (h2 : (⟨4, ![n0, n1, n2, 1]⟩ : Shape).BroadcastsInDim ⟨4, ![n0, n1, n2, n3]⟩ (![0, 1, 2, 3] : Fin 4 → Fin 4)) :
    FVec F ⟨4, ![n0, n1, n2, n3]⟩ .f32 :=
  Host.divf
    (Host.exp (subf X (broadcastInDim ⟨4, ![n0, n1, n2, n3]⟩ ![0, 1, 2, 3] h2 (broadcastInDim ⟨4, ![n0, n1, n2, 1]⟩ ![0, 1, 2] h1
      (maximumf (broadcastInDim ⟨3, ![n0, n1, n2]⟩ ![] h0 (constant ⟨0, ![]⟩ .f32 0xFF800000#32))
        (Host.reduce FloatOps.maximumf X (constant ⟨0, ![]⟩ .f32 0xFF800000#32) hred hu))))))
    (broadcastInDim ⟨4, ![n0, n1, n2, n3]⟩ ![0, 1, 2, 3] h2 (broadcastInDim ⟨4, ![n0, n1, n2, 1]⟩ ![0, 1, 2] h1
      (Host.reduceAdd
        (Host.exp (subf X (broadcastInDim ⟨4, ![n0, n1, n2, n3]⟩ ![0, 1, 2, 3] h2 (broadcastInDim ⟨4, ![n0, n1, n2, 1]⟩ ![0, 1, 2] h1
          (maximumf (broadcastInDim ⟨3, ![n0, n1, n2]⟩ ![] h0 (constant ⟨0, ![]⟩ .f32 0xFF800000#32))
            (Host.reduce FloatOps.maximumf X (constant ⟨0, ![]⟩ .f32 0xFF800000#32) hred hu))))))
        (constant ⟨0, ![]⟩ .f32 0x00000000#32) hred hu)))

end Host

/-- Read at (a, b, g, l), the host program is the softmax of row (a, b, g, ·) at `l`. -/
theorem hostSoftmax4_apply {n0 n1 n2 n3 : Nat} (X : FVec Ideal ⟨4, ![n0, n1, n2, n3]⟩ .f32)
    (hred : (⟨4, ![n0, n1, n2, n3]⟩ : Shape).ReducesTo [3] ⟨3, ![n0, n1, n2]⟩)
    (hr : (⟨4, ![n0, n1, n2, n3]⟩ : Shape).Reduces [3] ⟨3, ![n0, n1, n2]⟩)
    (hu : 0 < (⟨0, ![]⟩ : Shape).numel)
    (h0 : (⟨0, ![]⟩ : Shape).BroadcastsInDim ⟨3, ![n0, n1, n2]⟩ (![] : Fin 0 → Fin 3))
    (h1 : (⟨3, ![n0, n1, n2]⟩ : Shape).BroadcastsInDim ⟨4, ![n0, n1, n2, 1]⟩ (![0, 1, 2] : Fin 3 → Fin 4))
    (h2 : (⟨4, ![n0, n1, n2, 1]⟩ : Shape).BroadcastsInDim ⟨4, ![n0, n1, n2, n3]⟩ (![0, 1, 2, 3] : Fin 4 → Fin 4))
    (a : Fin n0) (b : Fin n1) (g : Fin n2) (l : Fin n3) :
    hostSoftmax4 (F := Ideal) X hred hu h0 h1 h2 (ix4 a b g l) = softmaxAt (fun k : Fin n3 => X (ix4 a b g k)) l := by
  -- the maximum at (a, b, g): joining the fold from minus infinity with minus infinity changes nothing
  have hM : maximumf (broadcastInDim ⟨3, ![n0, n1, n2]⟩ ![] h0 (constant (F := Ideal) ⟨0, ![]⟩ .f32 0xFF800000#32))
        (Host.reduce FloatOps.maximumf X (constant (F := Ideal) ⟨0, ![]⟩ .f32 0xFF800000#32) hred hu) (ix3 a b g)
      = (Finset.univ : Finset (Fin n3)).fold max negInf (fun k : Fin n3 => X (ix4 a b g k)) := by
    show max (broadcastInDim ⟨3, ![n0, n1, n2]⟩ ![] h0 (constant (F := Ideal) ⟨0, ![]⟩ .f32 0xFF800000#32) (ix3 a b g))
        (Host.reduce FloatOps.maximumf X (constant (F := Ideal) ⟨0, ![]⟩ .f32 0xFF800000#32) hred hu (ix3 a b g)) = _
    rw [Host.reduce_eq_fold_single FloatOps.maximumf X _ hred hr hu (ix3 a b g),
      broadcastInDim_apply _ h0 _ (ix3 a b g) ix0 (fun d => d.elim0)]
    show max negInf (Finset.univ.fold max negInf (X ∘ hr.lift (ix3 a b g))) = _
    rw [max_eq_right ((Finset.le_fold_max _).2 (Or.inl le_rfl))]
    exact congrArg (fun f : Fin n3 → EReal => (Finset.univ : Finset (Fin n3)).fold max negInf f)
      (funext fun k => congrArg X (lift4 hr a b g k))
  -- the exponentials at (a, b, g, k)
  have hE : ∀ k : Fin n3,
      Host.exp (subf X (broadcastInDim ⟨4, ![n0, n1, n2, n3]⟩ ![0, 1, 2, 3] h2 (broadcastInDim ⟨4, ![n0, n1, n2, 1]⟩ ![0, 1, 2] h1
          (maximumf (broadcastInDim ⟨3, ![n0, n1, n2]⟩ ![] h0 (constant (F := Ideal) ⟨0, ![]⟩ .f32 0xFF800000#32))
            (Host.reduce FloatOps.maximumf X (constant (F := Ideal) ⟨0, ![]⟩ .f32 0xFF800000#32) hred hu))))) (ix4 a b g k)
      = Ideal.exp (X (ix4 a b g k) - (Finset.univ : Finset (Fin n3)).fold max negInf (fun k : Fin n3 => X (ix4 a b g k))) := by
    intro k
    show Ideal.exp (X (ix4 a b g k) - broadcastInDim ⟨4, ![n0, n1, n2, n3]⟩ ![0, 1, 2, 3] h2 (broadcastInDim ⟨4, ![n0, n1, n2, 1]⟩ ![0, 1, 2] h1
          (maximumf (broadcastInDim ⟨3, ![n0, n1, n2]⟩ ![] h0 (constant (F := Ideal) ⟨0, ![]⟩ .f32 0xFF800000#32))
            (Host.reduce FloatOps.maximumf X (constant (F := Ideal) ⟨0, ![]⟩ .f32 0xFF800000#32) hred hu))) (ix4 a b g k)) = _
    rw [keepdims4_apply, hM]
  unfold hostSoftmax4 softmaxAt
  show Ideal.div _ _ = _
  rw [hE l, keepdims4_apply]
  refine congrArg (Ideal.div _) ?_
  show Ideal.hostReduceAdd hred _ (Ideal.ofBits .f32 0x00000000#32) (ix3 a b g) = _
  rw [Ideal.hostReduceAdd_single hred hr, Ideal.ofBits_zero_f32, zero_add]
  exact Finset.sum_congr rfl fun k _ => by rw [lift4 hr a b g k, hE k]

end Idealize.ShloMosaic.LastAxisSoftmax

end
-- ==== Proof.LibHostSoftmax3.lean ====
/-
  Softmax along the last axis of a rank-3 array as a host program writes it, read at an index, on the
  extended reals.

  On an array [a, b, c] the host program takes the maximum over axis 2 from the word of minus infinity,
  joins it once more with minus infinity (which changes nothing), spreads it back through [a, b, 1] to
  [a, b, c], subtracts, exponentiates, sums over axis 2 from zero, spreads the sum back the same way and
  divides (`hostSoftmax3`). Read at (p, g, l) it is `softmaxAt` of the row (p, g, ·) at `l`
  (`hostSoftmax3_apply`). The only laws used are max b (fold max b f) = fold max b f and 0 + s = s.
-/
import proofs.«125158_j26036091748420_1_alg».proof.Proof.LibLastAxisSoftmax

noncomputable section

open scoped BigOperators

namespace Idealize.ShloMosaic.LastAxisSoftmax

open Idealize.ShloMosaic Idealize.ShloMosaic.ValueIdx

section Host3
variable {n0 n1 n2 : Nat}

/-- A reduced array [a, b], broadcast to [a, b, 1] and then along the unit axis to [a, b, c], reads at
    (p, g, l) what it held at (p, g). -/
theorem keepdims3_host_apply {α : Type} (v : (⟨2, ![n0, n1]⟩ : Shape).Idx → α)
    (h1 : (⟨2, ![n0, n1]⟩ : Shape).BroadcastsInDim ⟨3, ![n0, n1, 1]⟩ (![0, 1] : Fin 2 → Fin 3))
    (h2 : (⟨3, ![n0, n1, 1]⟩ : Shape).BroadcastsInDim ⟨3, ![n0, n1, n2]⟩ (![0, 1, 2] : Fin 3 → Fin 3))
    (p : Fin n0) (g : Fin n1) (l : Fin n2) :
    broadcastInDim ⟨3, ![n0, n1, n2]⟩ ![0, 1, 2] h2 (broadcastInDim ⟨3, ![n0, n1, 1]⟩ ![0, 1] h1 v) (ix3 p g l)
      = v (ix2 p g) := by
  rw [broadcastInDim_apply _ h2 _ (ix3 p g l) (ix3 p g (⟨0, Nat.one_pos⟩ : Fin 1)) (fun d => by
    match d with
    | ⟨0, _⟩ =>
      show p.val = if n0 = 1 then 0 else p.val
      split
      · have := p.isLt; omega
      · rfl
    | ⟨1, _⟩ =>
      show g.val = if n1 = 1 then 0 else g.val
      split
      · have := g.isLt; omega
      · rfl
    | ⟨2, _⟩ =>
      show 0 = if (1 : Nat) = 1 then 0 else l.val
      rw [if_pos rfl])]
  exact broadcastInDim_apply _ h1 v _ (ix2 p g) (fun d => by
    match d with
    | ⟨0, _⟩ =>
      show p.val = if n0 = 1 then 0 else p.val
      split
      · have := p.isLt; omega
      · rfl
    | ⟨1, _⟩ =>
      show g.val = if n1 = 1 then 0 else g.val
      split
      · have := g.isLt; omega
      · rfl)

variable {F : FTy → Type} [FloatOps F]

/-- The host program: the maximum over axis 2 joined with minus infinity, subtracted, exponentiated, divided by
    the sum over axis 2 (from zero). -/
def hostSoftmax3 (X : FVec F ⟨3, ![n0, n1, n2]⟩ .f32)
    (hred : (⟨3, ![n0, n1, n2]⟩ : Shape).ReducesTo [2] ⟨2, ![n0, n1]⟩)
    (hu : 0 < (⟨0, ![]⟩ : Shape).numel)
    (h0 : (⟨0, ![]⟩ : Shape).BroadcastsInDim ⟨2, ![n0, n1]⟩ (![] : Fin 0 → Fin 2))
    (h1 : (⟨2, ![n0, n1]⟩ : Shape).BroadcastsInDim ⟨3, ![n0, n1, 1]⟩ (![0, 1] : Fin 2 → Fin 3))
    (h2 : (⟨3, ![n0, n1, 1]⟩ : Shape).BroadcastsInDim ⟨3, ![n0, n1, n2]⟩ (![0, 1, 2] : Fin 3 → Fin 3)) :
    FVec F ⟨3, ![n0, n1, n2]⟩ .f32 :=
  Host.divf
    (Host.exp (subf X (broadcastInDim ⟨3, ![n0, n1, n2]⟩ ![0, 1, 2] h2 (broadcastInDim ⟨3, ![n0, n1, 1]⟩ ![0, 1] h1
      (maximumf (broadcastInDim ⟨2, ![n0, n1]⟩ ![] h0 (constant ⟨0, ![]⟩ .f32 0xFF800000#32))
        (Host.reduce FloatOps.maximumf X (constant ⟨0, ![]⟩ .f32 0xFF800000#32) hred hu))))))
    (broadcastInDim ⟨3, ![n0, n1, n2]⟩ ![0, 1, 2] h2 (broadcastInDim ⟨3, ![n0, n1, 1]⟩ ![0, 1] h1
      (Host.reduceAdd
        (Host.exp (subf X (broadcastInDim ⟨3, ![n0, n1, n2]⟩ ![0, 1, 2] h2 (broadcastInDim ⟨3, ![n0, n1, 1]⟩ ![0, 1] h1
          (maximumf (broadcastInDim ⟨2, ![n0, n1]⟩ ![] h0 (constant ⟨0, ![]⟩ .f32 0xFF800000#32))
            (Host.reduce FloatOps.maximumf X (constant ⟨0, ![]⟩ .f32 0xFF800000#32) hred hu))))))
        (constant ⟨0, ![]⟩ .f32 0x00000000#32) hred hu)))

end Host3

/-- Read at (p, g, l), the host program is the softmax of row (p, g, ·) at `l`. -/
theorem hostSoftmax3_apply {n0 n1 n2 : Nat} (X : FVec Ideal ⟨3, ![n0, n1, n2]⟩ .f32)
    (hred : (⟨3, ![n0, n1, n2]⟩ : Shape).ReducesTo [2] ⟨2, ![n0, n1]⟩)
    (hr : (⟨3, ![n0, n1, n2]⟩ : Shape).Reduces [2] ⟨2, ![n0, n1]⟩)
    (hu : 0 < (⟨0, ![]⟩ : Shape).numel)
    (h0 : (⟨0, ![]⟩ : Shape).BroadcastsInDim ⟨2, ![n0, n1]⟩ (![] : Fin 0 → Fin 2))
    (h1 : (⟨2, ![n0, n1]⟩ : Shape).BroadcastsInDim ⟨3, ![n0, n1, 1]⟩ (![0, 1] : Fin 2 → Fin 3))
    (h2 : (⟨3, ![n0, n1, 1]⟩ : Shape).BroadcastsInDim ⟨3, ![n0, n1, n2]⟩ (![0, 1, 2] : Fin 3 → Fin 3))
    (p : Fin n0) (g : Fin n1) (l : Fin n2) :
    hostSoftmax3 (F := Ideal) X hred hu h0 h1 h2 (ix3 p g l) = softmaxAt (fun k : Fin n2 => X (ix3 p g k)) l := by
  -- the maximum at (p, g): joining the fold from minus infinity with minus infinity changes nothing
  have hM : maximumf (broadcastInDim ⟨2, ![n0, n1]⟩ ![] h0 (constant (F := Ideal) ⟨0, ![]⟩ .f32 0xFF800000#32))
        (Host.reduce FloatOps.maximumf X (constant (F := Ideal) ⟨0, ![]⟩ .f32 0xFF800000#32) hred hu) (ix2 p g)
      = (Finset.univ : Finset (Fin n2)).fold max negInf (fun k : Fin n2 => X (ix3 p g k)) := by
    show max (broadcastInDim ⟨2, ![n0, n1]⟩ ![] h0 (constant (F := Ideal) ⟨0, ![]⟩ .f32 0xFF800000#32) (ix2 p g))
        (Host.reduce FloatOps.maximumf X (constant (F := Ideal) ⟨0, ![]⟩ .f32 0xFF800000#32) hred hu (ix2 p g)) = _
    rw [Host.reduce_eq_fold_single FloatOps.maximumf X _ hred hr hu (ix2 p g),
      broadcastInDim_apply _ h0 _ (ix2 p g) ix0 (fun d => d.elim0)]
    show max negInf (Finset.univ.fold max negInf (X ∘ hr.lift (ix2 p g))) = _
    rw [max_eq_right ((Finset.le_fold_max _).2 (Or.inl le_rfl))]
    exact congrArg (fun f : Fin n2 → EReal => (Finset.univ : Finset (Fin n2)).fold max negInf f)
      (funext fun k => congrArg X (lift3 hr p g k))
  -- the exponentials at (p, g, k)
  have hE : ∀ k : Fin n2,
      Host.exp (subf X (broadcastInDim ⟨3, ![n0, n1, n2]⟩ ![0, 1, 2] h2 (broadcastInDim ⟨3, ![n0, n1, 1]⟩ ![0, 1] h1
          (maximumf (broadcastInDim ⟨2, ![n0, n1]⟩ ![] h0 (constant (F := Ideal) ⟨0, ![]⟩ .f32 0xFF800000#32))
            (Host.reduce FloatOps.maximumf X (constant (F := Ideal) ⟨0, ![]⟩ .f32 0xFF800000#32) hred hu))))) (ix3 p g k)
      = Ideal.exp (X (ix3 p g k) - (Finset.univ : Finset (Fin n2)).fold max negInf (fun k : Fin n2 => X (ix3 p g k))) := by
    intro k
    show Ideal.exp (X (ix3 p g k) - broadcastInDim ⟨3, ![n0, n1, n2]⟩ ![0, 1, 2] h2 (broadcastInDim ⟨3, ![n0, n1, 1]⟩ ![0, 1] h1
          (maximumf (broadcastInDim ⟨2, ![n0, n1]⟩ ![] h0 (constant (F := Ideal) ⟨0, ![]⟩ .f32 0xFF800000#32))
            (Host.reduce FloatOps.maximumf X (constant (F := Ideal) ⟨0, ![]⟩ .f32 0xFF800000#32) hred hu))) (ix3 p g k)) = _
    rw [keepdims3_host_apply, hM]
  unfold hostSoftmax3 softmaxAt
  show Ideal.div _ _ = _
  rw [hE l, keepdims3_host_apply]
  refine congrArg (Ideal.div _) ?_
  show Ideal.hostReduceAdd hred _ (Ideal.ofBits .f32 0x00000000#32) (ix2 p g) = _
  rw [Ideal.hostReduceAdd_single hred hr, Ideal.ofBits_zero_f32, zero_add]
  exact Finset.sum_congr rfl fun k _ => by rw [lift3 hr p g k, hE k]

end Idealize.ShloMosaic.LastAxisSoftmax

end
-- ==== Proof.Spec.lean ====
/-
  The mathematics both programs compute, as one function of the two argument arrays.

  For a batch b, a query row p and a memory slot d, the score is the inner product of query row p with
  slot d of batch b's memory, score b p d = ∑ k, query (p, k) · memory (b, d, k). The attention weight is the
  softmax over the slots d of the NEGATED scores (a softmin), and the result at (b, p, j) is the
  weighted sum of column j of batch b's memory: ∑ d, weight b p d · memory (b, d, j).
  Everything is on the extended reals; no law beyond commutativity of the product and 0 - x = -x joins the
  two programs to this function, so no entry needs to be finite.
-/
import proofs.«125158_j26036091748420_1_alg».proof.Proof.LibLastAxisSoftmax

noncomputable section

open scoped BigOperators

namespace Cert.Attend

open Idealize.ShloMosaic Idealize.ShloMosaic.ValueIdx Idealize.ShloMosaic.LastAxisSoftmax

/-- The query matrix [128, 1024] and the batched memory [128, 1024, 1024], as index-to-value functions. -/
abbrev QIdx := (⟨2, ![128, 1024]⟩ : Shape).Idx
abbrev MIdx := (⟨3, ![128, 1024, 1024]⟩ : Shape).Idx
abbrev OIdx := (⟨3, ![128, 128, 1024]⟩ : Shape).Idx

/-- The inner product of query row `p` with memory slot `d` of batch `b`. -/
def score (q : QIdx → EReal) (mem : MIdx → EReal) (b p : Fin 128) (d : Fin 1024) : EReal :=
  ∑ k : Fin 1024, q (ix2 p k) * mem (ix3 b d k)

/-- The attention weight of slot `d`: the softmax over the slots of the negated scores. -/
def weight (q : QIdx → EReal) (mem : MIdx → EReal) (b p : Fin 128) (d : Fin 1024) : EReal :=
  softmaxAt (fun d' : Fin 1024 => -(score q mem b p d')) d

/-- The result at batch `b`, query row `p`, column `j`: the weighted sum of column `j` over the slots. -/
def attendAt (q : QIdx → EReal) (mem : MIdx → EReal) (b p : Fin 128) (j : Fin 1024) : EReal :=
  ∑ d : Fin 1024, weight q mem b p d * mem (ix3 b d j)

/-- The whole result array [128, 128, 1024]. -/
def attend (q : QIdx → EReal) (mem : MIdx → EReal) : OIdx → EReal :=
  fun i => attendAt q mem (i 0) (i 1) (i 2)

theorem attend_ix3 (q : QIdx → EReal) (mem : MIdx → EReal) (b p : Fin 128) (j : Fin 1024) :
    attend q mem (ix3 b p j) = attendAt q mem b p j := rfl

/-- On the extended reals zero minus x is minus x, at the infinities too. -/
theorem zero_sub_ereal (x : EReal) : (0 : EReal) - x = -x := by
  rw [sub_eq_add_neg, zero_add]

end Cert.Attend

end
-- ==== Proof.RefValue.lean ====
/-
  The reference, read at an index, is the specification.

  The host program forms memory · query (a product over the model axis k, batch by batch), transposes the
  two outer axes so that the slots d come last, negates, takes the softmax over d in the host's way
  (maximum joined with minus infinity, two broadcasts through a unit axis) and contracts the weights with the
  memory over d. Against `Attend.attend` the only difference is the order of the two factors of the
  score's products, which commute on the extended reals.
-/
import proofs.«125158_j26036091748420_1_alg».proof.Proof.Gen.ReferenceIdeal.Read
import proofs.«125158_j26036091748420_1_alg».proof.Proof.LibHostSoftmax3
import proofs.«125158_j26036091748420_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe
open Idealize.ShloMosaic.ValueIdx Idealize.ShloMosaic.LastAxisSoftmax Cert.Attend

/-- The negated score at (b, p, d): the host's product has the memory's entry first, the query's second. -/
theorem negScore_apply (x0 : (⟨S128x1024, .f32⟩ : BufTy).Contents (Elt Ideal)) (x1 : (⟨S128x1024x1024, .f32⟩ : BufTy).Contents (Elt Ideal))
    (b p : Fin 128) (d : Fin 1024) :
    val_main_v2 (F := Ideal) x0 x1 (ix3 b p d) = -(score x0 x1 b p d) := by
  rw [val_main_v2_apply, val_main_v1_apply, val_main_v0_apply]
  show -(∑ k : Fin 1024, _) = _
  unfold score
  refine congrArg Neg.neg (Finset.sum_congr rfl fun k _ => ?_)
  have el : lidx_main_v0 (idx_main_v1 (ix3 b p d)) k = ix3 b d k :=
    funext fun a => Fin.ext (by match a with | ⟨0, _⟩ => rfl | ⟨1, _⟩ => rfl | ⟨2, _⟩ => rfl)
  have er : ridx_main_v0 (idx_main_v1 (ix3 b p d)) k = ix2 p k :=
    funext fun a => Fin.ext (by match a with | ⟨0, _⟩ => rfl | ⟨1, _⟩ => rfl)
  rw [el, er, mul_comm]

/-- The host's weights are its softmax program applied to the negated scores. -/
theorem weights_eq (x0 : (⟨S128x1024, .f32⟩ : BufTy).Contents (Elt Ideal)) (x1 : (⟨S128x1024x1024, .f32⟩ : BufTy).Contents (Elt Ideal)) :
    val_main_v13 (F := Ideal) x0 x1
      = hostSoftmax3 (F := Ideal) (val_main_v2 (F := Ideal) x0 x1) reducesTo_S128x128x1024_S128x128_d2 h_S_
          bcast_S_S128x128 bcast_S128x128_S128x128x1_0_1 bcast_S128x128x1_S128x128x1024_0_1_2 := rfl

/-- The host's weight at (b, p, d) is the specification's. -/
theorem weight_apply (x0 : (⟨S128x1024, .f32⟩ : BufTy).Contents (Elt Ideal)) (x1 : (⟨S128x1024x1024, .f32⟩ : BufTy).Contents (Elt Ideal))
    (b p : Fin 128) (d : Fin 1024) :
    val_main_v13 (F := Ideal) x0 x1 (ix3 b p d) = weight x0 x1 b p d := by
  rw [weights_eq, hostSoftmax3_apply _ reducesTo_S128x128x1024_S128x128_d2 (by decide)]
  unfold weight
  exact congrArg (fun f : Fin 1024 → EReal => softmaxAt f d) (funext fun d' => negScore_apply x0 x1 b p d')

/-- The reference's result array is the specification of its two arguments. -/
theorem reference_eq (x0 : (⟨S128x1024, .f32⟩ : BufTy).Contents (Elt Ideal)) (x1 : (⟨S128x1024x1024, .f32⟩ : BufTy).Contents (Elt Ideal)) :
    val_main_v14 (F := Ideal) x0 x1 = attend x0 x1 := by
  funext i
  obtain ⟨b, p, j, rfl⟩ : ∃ (b p : Fin 128) (j : Fin 1024), i = ix3 b p j := ⟨i 0, i 1, i 2, eq_ix3 i⟩
  rw [val_main_v14_apply, attend_ix3]
  unfold attendAt
  refine Finset.sum_congr rfl fun d _ => ?_
  have el : lidx_main_v14 (ix3 b p j) d = ix3 b p d :=
    funext fun a => Fin.ext (by match a with | ⟨0, _⟩ => rfl | ⟨1, _⟩ => rfl | ⟨2, _⟩ => rfl)
  have er : ridx_main_v14 (ix3 b p j) d = ix3 b d j :=
    funext fun a => Fin.ext (by match a with | ⟨0, _⟩ => rfl | ⟨1, _⟩ => rfl | ⟨2, _⟩ => rfl)
  rw [el, er, weight_apply]

end Cert.ReferenceIdeal.RefValue

end
-- ==== Proof.LibKeepdims.lean ====
/-
  Two layout operations read at an index, for a reduction that keeps its axis as a unit column:
  a vector [a] cast to a column [a, 1], and a column [a, 1] broadcast along the rows of [a, b].
  Together: (broadcast (cast v)) (p, c) = v p — every entry of row p is the row's reduced value.
-/
import Idealize.ShloMosaic.Lib.Pipeline.Value
import Idealize.ShloMosaic.Lib.ValueIdx
import Idealize.ShloMosaic.Lib.ValueLayout

noncomputable section

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector's entry `p` spread along row `p`: the cast to a column followed by the broadcast along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) := by
  rw [broadcastTo_a1_ab_apply, shapeCast_a_a1_apply]

end Cert.LibKeepdims

end
-- ==== Proof.LibRowSoftmax.lean ====
/-
  Softmax along the rows of a matrix and along the last axis of a rank-3 array, read at an index, on the
  extended reals: the low-rank companions of the rank-3 vector form and the rank-4 host form.

  * a vector program on [a, b]: the row maximum and the row sum are lane reductions to [a], each kept as a
    unit column [a, 1] and broadcast back along the rows (`vecSoftmax2`);
  * a host program on [a, b, c]: the maximum and the sum are reductions over axis 2 to [a, b], the maximum
    joined once more with minus infinity, each broadcast back through [a, b, 1] (`hostSoftmax3`).
  Read at an index both are `softmaxAt` of the row through that index. No law of arithmetic is used beyond
  max b (fold max b f) = fold max b f and 0 + s = s.
-/
import proofs.«125158_j26036091748420_1_alg».proof.Proof.LibLastAxisSoftmax
import proofs.«125158_j26036091748420_1_alg».proof.Proof.LibKeepdims

noncomputable section

open scoped BigOperators

namespace Idealize.ShloMosaic.LastAxisSoftmax

open Idealize.ShloMosaic Idealize.ShloMosaic.ValueIdx

/-! ## The vector program, rank 2 -/

section Vec2
variable {n0 n1 : Nat}

/-- The index of [a, b] over p of [a] with `k` on the reduced last axis is (p, k). -/
theorem lift2 (hr : (⟨2, ![n0, n1]⟩ : Shape).Reduces [1] ⟨1, ![n0]⟩) (p : Fin n0) (k : Fin n1) :
    hr.lift (ix1 p) k = ix2 p k := by
  funext a
  apply Fin.ext
  match a with
  | ⟨0, _⟩ => rfl
  | ⟨1, _⟩ => rfl

variable {F : FTy → Type} [FloatOps F]

/-- The vector program: subtract the row maximum, exponentiate, divide by the row sum. -/
def vecSoftmax2 (X : FVec F ⟨2, ![n0, n1]⟩ .f32)
    (hr : (⟨2, ![n0, n1]⟩ : Shape).Reduces [1] ⟨1, ![n0]⟩)
    (hc : (⟨1, ![n0]⟩ : Shape).ShapeCasts ⟨2, ![n0, 1]⟩)
    (hb : (⟨2, ![n0, 1]⟩ : Shape).Broadcasts ⟨2, ![n0, n1]⟩)
    (hφ : FKind.Formats .f32) (hmax : (0xFF800000#32 : BitVec 32) = FKind.maximumf.neutral .f32 hφ)
    (hadd : (0x00000000#32 : BitVec 32) = FKind.add.neutral .f32 hφ) : FVec F ⟨2, ![n0, n1]⟩ .f32 :=
  divf
    (exp (subf X (broadcastTo ⟨2, ![n0, n1]⟩ (shapeCast ⟨2, ![n0, 1]⟩
      (multiReduction .maximumf [1] ⟨1, ![n0]⟩ X 0xFF800000#32 hr hφ hmax) hc) hb)))
    (broadcastTo ⟨2, ![n0, n1]⟩ (shapeCast ⟨2, ![n0, 1]⟩
      (multiReduction .add [1] ⟨1, ![n0]⟩
        (exp (subf X (broadcastTo ⟨2, ![n0, n1]⟩ (shapeCast ⟨2, ![n0, 1]⟩
          (multiReduction .maximumf [1] ⟨1, ![n0]⟩ X 0xFF800000#32 hr hφ hmax) hc) hb)))
        0x00000000#32 hr hφ hadd) hc) hb)

end Vec2

/-- Read at (p, l), the vector program is the softmax of row p at `l`. -/
theorem vecSoftmax2_apply {n0 n1 : Nat} (X : FVec Ideal ⟨2, ![n0, n1]⟩ .f32)
    (hr : (⟨2, ![n0, n1]⟩ : Shape).Reduces [1] ⟨1, ![n0]⟩)
    (hc : (⟨1, ![n0]⟩ : Shape).ShapeCasts ⟨2, ![n0, 1]⟩)
    (hb : (⟨2, ![n0, 1]⟩ : Shape).Broadcasts ⟨2, ![n0, n1]⟩)
    (hφ : FKind.Formats .f32) (hmax : (0xFF800000#32 : BitVec 32) = FKind.maximumf.neutral .f32 hφ)
    (hadd : (0x00000000#32 : BitVec 32) = FKind.add.neutral .f32 hφ) (p : Fin n0) (l : Fin n1) :
    vecSoftmax2 (F := Ideal) X hr hc hb hφ hmax hadd (ix2 p l) = softmaxAt (fun k : Fin n1 => X (ix2 p k)) l := by
  -- the row maximum at p: the fold of `max` over the row
  have hM : multiReduction .maximumf [1] ⟨1, ![n0]⟩ X 0xFF800000#32 hr hφ hmax (ix1 p)
      = (Finset.univ : Finset (Fin n1)).fold max negInf (fun k : Fin n1 => X (ix2 p k)) := by
    rw [Ideal.multiReduction_maximumf_single]
    exact congrArg (fun f : Fin n1 → EReal => (Finset.univ : Finset (Fin n1)).fold max negInf f)
      (funext fun k => congrArg X (lift2 hr p k))
  -- the exponentials at (p, k)
  have hE : ∀ k : Fin n1,
      exp (subf X (broadcastTo ⟨2, ![n0, n1]⟩ (shapeCast ⟨2, ![n0, 1]⟩
        (multiReduction .maximumf [1] ⟨1, ![n0]⟩ X 0xFF800000#32 hr hφ hmax) hc) hb)) (ix2 p k)
      = Ideal.exp (X (ix2 p k) - (Finset.univ : Finset (Fin n1)).fold max negInf (fun k : Fin n1 => X (ix2 p k))) := by
    intro k
    show Ideal.exp (X (ix2 p k) - broadcastTo ⟨2, ![n0, n1]⟩ (shapeCast ⟨2, ![n0, 1]⟩
        (multiReduction .maximumf [1] ⟨1, ![n0]⟩ X 0xFF800000#32 hr hφ hmax) hc) hb (ix2 p k)) = _
    rw [Cert.LibKeepdims.keepdims_apply, hM]
  unfold vecSoftmax2 softmaxAt
  show Ideal.div _ _ = _
  rw [hE l, Cert.LibKeepdims.keepdims_apply, Ideal.multiReduction_add_single]
  refine congrArg (Ideal.div _) ?_
  exact Finset.sum_congr rfl fun k _ => by rw [lift2 hr p k, hE k]

end Idealize.ShloMosaic.LastAxisSoftmax

end
-- ==== Proof.LibRowSoftmaxJoined.lean ====
/-
  Softmax along the rows of a matrix [a, b] as a vector program writes it when the row maximum is joined once
  more with minus infinity before it is subtracted, read at an index, on the extended reals.

  The row maximum is a lane reduction to [a] from the word of minus infinity; the program then takes the
  maximum of that vector with the splat of minus infinity (which changes nothing, the fold having started
  there), keeps it as a unit column [a, 1], broadcasts it back along the rows, subtracts, exponentiates, sums
  each row from zero, spreads the sum back the same way and divides (`vecSoftmax2Joined`). Read at (p, l)
  it is `softmaxAt` of row p at `l` (`vecSoftmax2Joined_apply`). The only laws used are
  max b (fold max b f) = fold max b f and 0 + s = s.
-/
import proofs.«125158_j26036091748420_1_alg».proof.Proof.LibRowSoftmax

noncomputable section

open scoped BigOperators

namespace Idealize.ShloMosaic.LastAxisSoftmax

open Idealize.ShloMosaic Idealize.ShloMosaic.ValueIdx

section Vec2Joined
variable {n0 n1 : Nat}
variable {F : FTy → Type} [FloatOps F]

/-- The row maximum joined with the splat of minus infinity. -/
def rowMaxJoined (X : FVec F ⟨2, ![n0, n1]⟩ .f32)
    (hr : (⟨2, ![n0, n1]⟩ : Shape).Reduces [1] ⟨1, ![n0]⟩)
    (hφ : FKind.Formats .f32) (hmax : (0xFF800000#32 : BitVec 32) = FKind.maximumf.neutral .f32 hφ) : FVec F ⟨1, ![n0]⟩ .f32 :=
  maximumf (broadcast ⟨1, ![n0]⟩ (Scalar.ofBits .f32 0xFF800000#32))
    (multiReduction .maximumf [1] ⟨1, ![n0]⟩ X 0xFF800000#32 hr hφ hmax)

/-- The vector program: subtract the joined row maximum, exponentiate, divide by the row sum. -/
def vecSoftmax2Joined (X : FVec F ⟨2, ![n0, n1]⟩ .f32)
    (hr : (⟨2, ![n0, n1]⟩ : Shape).Reduces [1] ⟨1, ![n0]⟩)
    (hc : (⟨1, ![n0]⟩ : Shape).ShapeCasts ⟨2, ![n0, 1]⟩)
    (hb : (⟨2, ![n0, 1]⟩ : Shape).Broadcasts ⟨2, ![n0, n1]⟩)
    (hφ : FKind.Formats .f32) (hmax : (0xFF800000#32 : BitVec 32) = FKind.maximumf.neutral .f32 hφ)
    (hadd : (0x00000000#32 : BitVec 32) = FKind.add.neutral .f32 hφ) : FVec F ⟨2, ![n0, n1]⟩ .f32 :=
  divf
    (exp (subf X (broadcastTo ⟨2, ![n0, n1]⟩ (shapeCast ⟨2, ![n0, 1]⟩ (rowMaxJoined X hr hφ hmax) hc) hb)))
    (broadcastTo ⟨2, ![n0, n1]⟩ (shapeCast ⟨2, ![n0, 1]⟩
      (multiReduction .add [1] ⟨1, ![n0]⟩
        (exp (subf X (broadcastTo ⟨2, ![n0, n1]⟩ (shapeCast ⟨2, ![n0, 1]⟩ (rowMaxJoined X hr hφ hmax) hc) hb)))
        0x00000000#32 hr hφ hadd) hc) hb)

end Vec2Joined

/-- Read at (p, l), the vector program is the softmax of row p at `l`. -/
theorem vecSoftmax2Joined_apply {n0 n1 : Nat} (X : FVec Ideal ⟨2, ![n0, n1]⟩ .f32)
    (hr : (⟨2, ![n0, n1]⟩ : Shape).Reduces [1] ⟨1, ![n0]⟩)
    (hc : (⟨1, ![n0]⟩ : Shape).ShapeCasts ⟨2, ![n0, 1]⟩)
    (hb : (⟨2, ![n0, 1]⟩ : Shape).Broadcasts ⟨2, ![n0, n1]⟩)
    (hφ : FKind.Formats .f32) (hmax : (0xFF800000#32 : BitVec 32) = FKind.maximumf.neutral .f32 hφ)
    (hadd : (0x00000000#32 : BitVec 32) = FKind.add.neutral .f32 hφ) (p : Fin n0) (l : Fin n1) :
    vecSoftmax2Joined (F := Ideal) X hr hc hb hφ hmax hadd (ix2 p l) = softmaxAt (fun k : Fin n1 => X (ix2 p k)) l := by
  -- the joined row maximum at p: joining the fold from minus infinity with minus infinity changes nothing
  have hM : rowMaxJoined (F := Ideal) X hr hφ hmax (ix1 p)
      = (Finset.univ : Finset (Fin n1)).fold max negInf (fun k : Fin n1 => X (ix2 p k)) := by
    show max negInf (multiReduction .maximumf [1] ⟨1, ![n0]⟩ X 0xFF800000#32 hr hφ hmax (ix1 p)) = _
    rw [Ideal.multiReduction_maximumf_single]
    show max negInf (Finset.univ.fold max negInf (X ∘ hr.lift (ix1 p))) = _
    rw [max_eq_right ((Finset.le_fold_max _).2 (Or.inl le_rfl))]
    exact congrArg (fun f : Fin n1 → EReal => (Finset.univ : Finset (Fin n1)).fold max negInf f)
      (funext fun k => congrArg X (lift2 hr p k))
  -- the exponentials at (p, k)
  have hE : ∀ k : Fin n1,
      exp (subf X (broadcastTo ⟨2, ![n0, n1]⟩ (shapeCast ⟨2, ![n0, 1]⟩ (rowMaxJoined (F := Ideal) X hr hφ hmax) hc) hb)) (ix2 p k)
      = Ideal.exp (X (ix2 p k) - (Finset.univ : Finset (Fin n1)).fold max negInf (fun k : Fin n1 => X (ix2 p k))) := by
    intro k
    show Ideal.exp (X (ix2 p k) - broadcastTo ⟨2, ![n0, n1]⟩ (shapeCast ⟨2, ![n0, 1]⟩
        (rowMaxJoined (F := Ideal) X hr hφ hmax) hc) hb (ix2 p k)) = _
    rw [Cert.LibKeepdims.keepdims_apply, hM]
  unfold vecSoftmax2Joined softmaxAt
  show Ideal.div _ _ = _
  rw [hE l, Cert.LibKeepdims.keepdims_apply, Ideal.multiReduction_add_single]
  refine congrArg (Ideal.div _) ?_
  exact Finset.sum_congr rfl fun k _ => by rw [lift2 hr p k, hE k]

end Idealize.ShloMosaic.LastAxisSoftmax

end
-- ==== Proof.KernelBody.lean ====
/-
  What the kernel's body stores, read at an index.

  At one grid point the body holds the whole query matrix x0 [128, 1024] and one batch's memory x1
  [1, 1024, 1024]. It drops the memory's unit axis, multiplies the query by the memory's transpose into zero
  (scores over the model axis k), subtracts the scores from zero, takes the softmax along the rows with the row
  maximum joined once more with minus infinity, and multiplies the weights by the memory into zero (over the
  slots d), putting the unit axis back. The changes of float format are the identity on the extended reals.
  Read at (0, p, j) the stored value is the weighted sum the specification names, over this one batch.
-/
import proofs.«125158_j26036091748420_1_alg».proof.Proof.Gen.KernelIdeal.Skeleton
import proofs.«125158_j26036091748420_1_alg».proof.Proof.LibRowSoftmaxJoined
import proofs.«125158_j26036091748420_1_alg».proof.Proof.Spec
import Idealize.ShloMosaic.PureOps.Ideal.Laws
import Idealize.ShloMosaic.Lib.ValueIdx
import Idealize.ShloMosaic.Lib.Pipeline.Value

noncomputable section

open scoped BigOperators

namespace Cert.KernelIdeal.Body

open Cert.KernelIdeal Cert.KernelIdeal.Gen Idealize.ShloMosaic Idealize.ShloMosaic.TcCoe
open Idealize.ShloMosaic.ValueIdx Idealize.ShloMosaic.LastAxisSoftmax Cert.Attend

/-! ## The two matrix products -/

/-! The operand indices of the first product (both operands contracted along their last axis), coordinate by coordinate. -/

theorem scores_lhs_0 (i : S128x1024.Idx) (q : dot_S128x1024_S1024x1024_S128x1024_1_1_0_0_n_n.contr.Idx) :
    (dot_S128x1024_S1024x1024_S128x1024_1_1_0_0_n_n.lhsIdx i q 0).val = (i 0).val := by
  unfold DotDims.lhsIdx
  rw [dif_neg (show ¬(0 : Fin S128x1024.rank) ∈ dot_S128x1024_S1024x1024_S128x1024_1_1_0_0_n_n.lhsBatch by decide), dif_pos (show (0 : Fin S128x1024.rank) ∈ dot_S128x1024_S1024x1024_S128x1024_1_1_0_0_n_n.lhsNonContracting by decide)]
  rfl
theorem scores_lhs_1 (i : S128x1024.Idx) (q : dot_S128x1024_S1024x1024_S128x1024_1_1_0_0_n_n.contr.Idx) :
    (dot_S128x1024_S1024x1024_S128x1024_1_1_0_0_n_n.lhsIdx i q 1).val = (q ⟨0, by decide⟩).val :=
  dot_S128x1024_S1024x1024_S128x1024_1_1_0_0_n_n.lhsIdx_val_of_single rfl i q
theorem scores_rhs_0 (i : S128x1024.Idx) (q : dot_S128x1024_S1024x1024_S128x1024_1_1_0_0_n_n.contr.Idx) :
    (dot_S128x1024_S1024x1024_S128x1024_1_1_0_0_n_n.rhsIdx i q 0).val = (i 1).val := by
  unfold DotDims.rhsIdx
  rw [dif_neg (show ¬(0 : Fin S1024x1024.rank) ∈ dot_S128x1024_S1024x1024_S128x1024_1_1_0_0_n_n.rhsBatch by decide), dif_pos (show (0 : Fin S1024x1024.rank) ∈ dot_S128x1024_S1024x1024_S128x1024_1_1_0_0_n_n.rhsNonContracting by decide)]
  rfl
theorem scores_rhs_1 (i : S128x1024.Idx) (q : dot_S128x1024_S1024x1024_S128x1024_1_1_0_0_n_n.contr.Idx) :
    (dot_S128x1024_S1024x1024_S128x1024_1_1_0_0_n_n.rhsIdx i q 1).val = (q ⟨0, by decide⟩).val :=
  dot_S128x1024_S1024x1024_S128x1024_1_1_0_0_n_n.rhsIdx_val_of_single rfl i q

/-- The product over the LAST axis of both operands, into zero: entry (p, d) is ∑ k, l (p, k) · r (d, k). -/
theorem scores_apply (l : FVec Ideal S128x1024 .bf16) (r : FVec Ideal S1024x1024 .bf16) (p : Fin 128) (d : Fin 1024) :
    matmul dot_S128x1024_S1024x1024_S128x1024_1_1_0_0_n_n none l r (constant S128x1024 .f32 0x00000000#32) (ix2 p d)
      = ∑ k : Fin 1024, l (ix2 p k) * r (ix2 d k) := by
  refine (Ideal.matmul_constant_zero_apply dot_S128x1024_S1024x1024_S128x1024_1_1_0_0_n_n none l r (ix2 p d)).trans ?_
  rw [← Equiv.sum_comp (contrEquiv1 dot_S128x1024_S1024x1024_S128x1024_1_1_0_0_n_n 1024 rfl rfl).symm]
  refine Finset.sum_congr rfl fun k _ => ?_
  have hk := contrEquiv1_symm_val dot_S128x1024_S1024x1024_S128x1024_1_1_0_0_n_n 1024 rfl rfl k
  have el : dot_S128x1024_S1024x1024_S128x1024_1_1_0_0_n_n.lhsIdx (ix2 p d) ((contrEquiv1 dot_S128x1024_S1024x1024_S128x1024_1_1_0_0_n_n 1024 rfl rfl).symm k) = ix2 p k :=
    funext fun a => Fin.ext (by
      match a with
      | ⟨0, _⟩ => exact scores_lhs_0 _ _
      | ⟨1, _⟩ => exact (scores_lhs_1 _ _).trans hk)
  have er : dot_S128x1024_S1024x1024_S128x1024_1_1_0_0_n_n.rhsIdx (ix2 p d) ((contrEquiv1 dot_S128x1024_S1024x1024_S128x1024_1_1_0_0_n_n 1024 rfl rfl).symm k) = ix2 d k :=
    funext fun a => Fin.ext (by
      match a with
      | ⟨0, _⟩ => exact scores_rhs_0 _ _
      | ⟨1, _⟩ => exact (scores_rhs_1 _ _).trans hk)
  rw [el, er]

/-! The operand indices of the second product (rows by columns), coordinate by coordinate. -/

theorem mix_lhs_0 (i : S128x1024.Idx) (q : dot_S128x1024_S1024x1024_S128x1024_1_0_0_1_n_n.contr.Idx) :
    (dot_S128x1024_S1024x1024_S128x1024_1_0_0_1_n_n.lhsIdx i q 0).val = (i 0).val := by
  unfold DotDims.lhsIdx
  rw [dif_neg (show ¬(0 : Fin S128x1024.rank) ∈ dot_S128x1024_S1024x1024_S128x1024_1_0_0_1_n_n.lhsBatch by decide), dif_pos (show (0 : Fin S128x1024.rank) ∈ dot_S128x1024_S1024x1024_S128x1024_1_0_0_1_n_n.lhsNonContracting by decide)]
  rfl
theorem mix_lhs_1 (i : S128x1024.Idx) (q : dot_S128x1024_S1024x1024_S128x1024_1_0_0_1_n_n.contr.Idx) :
    (dot_S128x1024_S1024x1024_S128x1024_1_0_0_1_n_n.lhsIdx i q 1).val = (q ⟨0, by decide⟩).val :=
  dot_S128x1024_S1024x1024_S128x1024_1_0_0_1_n_n.lhsIdx_val_of_single rfl i q
theorem mix_rhs_0 (i : S128x1024.Idx) (q : dot_S128x1024_S1024x1024_S128x1024_1_0_0_1_n_n.contr.Idx) :
    (dot_S128x1024_S1024x1024_S128x1024_1_0_0_1_n_n.rhsIdx i q 0).val = (q ⟨0, by decide⟩).val :=
  dot_S128x1024_S1024x1024_S128x1024_1_0_0_1_n_n.rhsIdx_val_of_single rfl i q
theorem mix_rhs_1 (i : S128x1024.Idx) (q : dot_S128x1024_S1024x1024_S128x1024_1_0_0_1_n_n.contr.Idx) :
    (dot_S128x1024_S1024x1024_S128x1024_1_0_0_1_n_n.rhsIdx i q 1).val = (i 1).val := by
  unfold DotDims.rhsIdx
  rw [dif_neg (show ¬(1 : Fin S1024x1024.rank) ∈ dot_S128x1024_S1024x1024_S128x1024_1_0_0_1_n_n.rhsBatch by decide), dif_pos (show (1 : Fin S1024x1024.rank) ∈ dot_S128x1024_S1024x1024_S128x1024_1_0_0_1_n_n.rhsNonContracting by decide)]
  rfl

/-- The plain product, into zero: entry (p, j) is ∑ d, l (p, d) · r (d, j). -/
theorem mix_apply (l : FVec Ideal S128x1024 .bf16) (r : FVec Ideal S1024x1024 .bf16) (p : Fin 128) (j : Fin 1024) :
    matmul dot_S128x1024_S1024x1024_S128x1024_1_0_0_1_n_n none l r (constant S128x1024 .f32 0x00000000#32) (ix2 p j)
      = ∑ d : Fin 1024, l (ix2 p d) * r (ix2 d j) := by
  refine (Ideal.matmul_constant_zero_apply dot_S128x1024_S1024x1024_S128x1024_1_0_0_1_n_n none l r (ix2 p j)).trans ?_
  rw [← Equiv.sum_comp (contrEquiv1 dot_S128x1024_S1024x1024_S128x1024_1_0_0_1_n_n 1024 rfl rfl).symm]
  refine Finset.sum_congr rfl fun k _ => ?_
  have hk := contrEquiv1_symm_val dot_S128x1024_S1024x1024_S128x1024_1_0_0_1_n_n 1024 rfl rfl k
  have el : dot_S128x1024_S1024x1024_S128x1024_1_0_0_1_n_n.lhsIdx (ix2 p j) ((contrEquiv1 dot_S128x1024_S1024x1024_S128x1024_1_0_0_1_n_n 1024 rfl rfl).symm k) = ix2 p k :=
    funext fun a => Fin.ext (by
      match a with
      | ⟨0, _⟩ => exact mix_lhs_0 _ _
      | ⟨1, _⟩ => exact (mix_lhs_1 _ _).trans hk)
  have er : dot_S128x1024_S1024x1024_S128x1024_1_0_0_1_n_n.rhsIdx (ix2 p j) ((contrEquiv1 dot_S128x1024_S1024x1024_S128x1024_1_0_0_1_n_n 1024 rfl rfl).symm k) = ix2 k j :=
    funext fun a => Fin.ext (by
      match a with
      | ⟨0, _⟩ => exact (mix_rhs_0 _ _).trans hk
      | ⟨1, _⟩ => exact mix_rhs_1 _ _)
  rw [el, er]

/-! ## The layout steps -/

/-- The memory block with its unit axis dropped: entry (d, k) is the block's entry (0, d, k). -/
theorem slot_apply (x1 : FVec Ideal S1x1024x1024 .f32) (d k : Fin 1024) :
    shapeCast S1024x1024 x1 shapeCasts_S1x1024x1024_S1024x1024 (ix2 d k) = x1 (ix3 (0 : Fin 1) d k) :=
  shapeCast_apply x1 shapeCasts_S1x1024x1024_S1024x1024 _ _ (by
    rw [Shape.rowMajor_val_three, Shape.rowMajor_val_two]
    show (0 * 1024 + d.val) * 1024 + k.val = d.val * 1024 + k.val
    omega)

/-- The result with a unit axis put in front: entry (0, p, j) is the matrix's entry (p, j). -/
theorem unit_front_apply (y : FVec Ideal S128x1024 .f32) (p : Fin 128) (j : Fin 1024) :
    shapeCast S1x128x1024 y shapeCasts_S128x1024_S1x128x1024 (ix3 (0 : Fin 1) p j) = y (ix2 p j) :=
  shapeCast_apply y shapeCasts_S128x1024_S1x128x1024 _ _ (by
    rw [Shape.rowMajor_val_three, Shape.rowMajor_val_two]
    show p.val * 1024 + j.val = (0 * 128 + p.val) * 1024 + j.val
    omega)

/-! ## The body's stored value -/

/-- The scores subtracted from zero, as the body forms them from the query block and the memory matrix. -/
def negScores (x0 : FVec Ideal S128x1024 .f32) (mm : FVec Ideal S1024x1024 .f32) : FVec Ideal S128x1024 .f32 :=
  subf (broadcast S128x1024 (Scalar.ofBits .f32 0x00000000#32))
    (matmul dot_S128x1024_S1024x1024_S128x1024_1_1_0_0_n_n none (truncf .bf16 x0 bitsLt_bf16_f32) (truncf .bf16 mm bitsLt_bf16_f32)
      (constant S128x1024 .f32 0x00000000#32))

/-- Zero minus the score is the negated score. -/
theorem negScores_apply (x0 : FVec Ideal S128x1024 .f32) (mm : FVec Ideal S1024x1024 .f32) (p : Fin 128) (d : Fin 1024) :
    negScores x0 mm (ix2 p d) = -(∑ k : Fin 1024, x0 (ix2 p k) * mm (ix2 d k)) := by
  show Ideal.ofBits .f32 0x00000000#32 - matmul dot_S128x1024_S1024x1024_S128x1024_1_1_0_0_n_n none (truncf .bf16 x0 bitsLt_bf16_f32)
      (truncf .bf16 mm bitsLt_bf16_f32) (constant S128x1024 .f32 0x00000000#32) (ix2 p d) = _
  rw [scores_apply, Ideal.ofBits_zero_f32, zero_sub_ereal]
  rfl

/-- The body's stored value is the second product of the softmax of the negated scores with the memory matrix. -/
theorem pay_eq (x0 : Vec Ideal S128x1024 .f32) (x1 : Vec Ideal S1x1024x1024 .f32) :
    k0_pay1 (F := Ideal) x0 x1
      = shapeCast S1x128x1024
          (matmul dot_S128x1024_S1024x1024_S128x1024_1_0_0_1_n_n none
            (truncf .bf16 (vecSoftmax2Joined (F := Ideal) (negScores x0 (shapeCast S1024x1024 x1 shapeCasts_S1x1024x1024_S1024x1024))
              reduces_S128x1024_S128 shapeCasts_S128_S128x1 broadcasts_S128x1_S128x1024 (.inl rfl) rfl rfl) bitsLt_bf16_f32)
            (truncf .bf16 (shapeCast S1024x1024 x1 shapeCasts_S1x1024x1024_S1024x1024) bitsLt_bf16_f32)
            (constant S128x1024 .f32 0x00000000#32))
          shapeCasts_S128x1024_S1x128x1024 := rfl

/-- Read at (0, p, j): the weighted sum over the slots d of column j of this batch's memory, the weights the
    softmax over d of the negated inner products of query row p with the slots. -/
theorem pay_apply (x0 : Vec Ideal S128x1024 .f32) (x1 : Vec Ideal S1x1024x1024 .f32) (p : Fin 128) (j : Fin 1024) :
    k0_pay1 (F := Ideal) x0 x1 (ix3 (0 : Fin 1) p j)
      = ∑ d : Fin 1024, softmaxAt (fun d' : Fin 1024 => -(∑ k : Fin 1024, x0 (ix2 p k) * x1 (ix3 (0 : Fin 1) d' k))) d
          * x1 (ix3 (0 : Fin 1) d j) := by
  rw [pay_eq, unit_front_apply, mix_apply]
  refine Finset.sum_congr rfl fun d _ => ?_
  -- the weight of slot d: the joined row softmax of the negated scores, read at (p, d)
  have hw : vecSoftmax2Joined (F := Ideal) (negScores x0 (shapeCast S1024x1024 x1 shapeCasts_S1x1024x1024_S1024x1024))
        reduces_S128x1024_S128 shapeCasts_S128_S128x1 broadcasts_S128x1_S128x1024 (.inl rfl) rfl rfl (ix2 p d)
      = softmaxAt (fun d' : Fin 1024 => -(∑ k : Fin 1024, x0 (ix2 p k) * x1 (ix3 (0 : Fin 1) d' k))) d := by
    refine (vecSoftmax2Joined_apply _ _ _ _ _ _ _ p d).trans ?_
    refine congrArg (fun f : Fin 1024 → EReal => softmaxAt f d) (funext fun d' => ?_)
    refine (negScores_apply x0 _ p d').trans ?_
    exact congrArg Neg.neg (Finset.sum_congr rfl fun k _ => by rw [slot_apply])
  exact congr (congrArg HMul.hMul hw) (slot_apply x1 d j)

end Cert.KernelIdeal.Body

end
-- ==== Proof.Whole.lean ====
/-
  From the blocks to the whole result array.

  The grid has one point per batch b. At point b the query window holds the whole query matrix (its block
  index is (0, 0) at every point), the memory window holds batch b's memory (block index (b, 0, 0), a block
  [1, 1024, 1024]), and the output window writes back block (b, 0, 0) of the result, a block [1, 128, 1024].
  What point b writes back is therefore block b of `Attend.attend` of the two argument arrays; the 128
  blocks tile the result array, so after the run the array is `Attend.attend` everywhere.
-/
import proofs.«125158_j26036091748420_1_alg».proof.Proof.Gen.KernelIdeal.Value
import proofs.«125158_j26036091748420_1_alg».proof.Proof.KernelBody

noncomputable section

open scoped BigOperators

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.LastAxisSoftmax Cert.Attend

variable (m : (ℓ : Loc nD τ sig) → Buf (Elt Ideal) ℓ) (ρ : Dev nD → PrngReg)

theorem origin2 : (![0, 0] : Fin 2 → Nat) = fun _ => 0 := funext fun a => by fin_cases a <;> rfl
theorem origin3 : (![0, 0, 0] : Fin 3 → Nat) = fun _ => 0 := funext fun a => by fin_cases a <;> rfl

/-- The three index maps over the grid: the query's block never moves, the memory's and the result's blocks
    are numbered by the grid point along the batch axis. -/
theorem block_indices : ∀ t : Fin cfg0.N,
    win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The body's stored value on blocks that are the query matrix and batch `b`'s memory is block `b` of the
    specification: stated over variables of the literal block types, with the coordinates as hypotheses. -/
theorem stored_eq (q : QIdx → EReal) (mem : MIdx → EReal) (b : Fin 128)
    (x0 : Vec Ideal S128x1024 .f32) (x1 : Vec Ideal S1x1024x1024 .f32)
    (h0 : ∀ (p : Fin 128) (k : Fin 1024), x0 (ix2 p k) = q (ix2 p k))
    (h1 : ∀ (d k : Fin 1024), x1 (ix3 (0 : Fin 1) d k) = mem (ix3 b d k))
    (y : S1x128x1024.Idx) (i : OIdx) (hi0 : (i 0).val = b.val) (hi1 : (i 1).val = (y 1).val) (hi2 : (i 2).val = (y 2).val) :
    k0_pay1 (F := Ideal) x0 x1 y = attend q mem i := by
  obtain ⟨u, p, j, rfl⟩ : ∃ (u : Fin 1) (p : Fin 128) (j : Fin 1024), y = ix3 u p j := ⟨y 0, y 1, y 2, eq_ix3 y⟩
  obtain rfl : u = 0 := Subsingleton.elim _ _
  obtain rfl : i = ix3 b p j := by
    rw [eq_ix3 i]
    exact congr (congr (congrArg ix3 (Fin.ext hi0)) (Fin.ext hi1)) (Fin.ext hi2)
  rw [Body.pay_apply, attend_ix3]
  unfold attendAt weight score
  refine Finset.sum_congr rfl fun d _ => ?_
  rw [h1 d j]
  refine congrArg (· * _) (congrArg (fun f : Fin 1024 → EReal => softmaxAt f d) (funext fun d' => ?_))
  exact congrArg Neg.neg (Finset.sum_congr rfl fun k _ => by rw [h0 p k, h1 d' k])

/-- The query window's block at any point is the query matrix. -/
theorem query_block (c : Dev nD) (t : Fin cfg0.N) (p : Fin 128) (k : Fin 1024) :
    iblk m c 0 t (ix2 p k) = V m c main_arg0 (ix2 p k) := by
  obtain ⟨e0, e1, -⟩ := block_indices t
  show V m c main_arg0 (((cfg0.win 0).blk t).view.emb (ix2 p k)) = V m c main_arg0 (ix2 p k)
  refine congrArg _ (funext fun a => Fin.ext ?_)
  match a with
  | ⟨0, _⟩ => show win0_0.index t (0 : Fin 2) * 128 + 1 * p.val = p.val; omega
  | ⟨1, _⟩ => show win0_0.index t (1 : Fin 2) * 1024 + 1 * k.val = k.val; omega

/-- The memory window's block at point `t` is batch `t`'s memory. -/
theorem memory_block (c : Dev nD) (t : Fin cfg0.N) (d k : Fin 1024) :
    iblk m c 1 t (ix3 (0 : Fin 1) d k) = V m c main_arg1 (ix3 (⟨t.val, t.isLt⟩ : Fin 128) d k) := by
  obtain ⟨-, -, e2, e3, e4, -⟩ := block_indices t
  show V m c main_arg1 (((cfg0.win 1).blk t).view.emb (ix3 (0 : Fin 1) d k)) = V m c main_arg1 (ix3 (⟨t.val, t.isLt⟩ : Fin 128) d k)
  refine congrArg _ (funext fun a => Fin.ext ?_)
  match a with
  | ⟨0, _⟩ => show win0_1.index t (0 : Fin 3) * 1 + 1 * 0 = t.val; omega
  | ⟨1, _⟩ => show win0_1.index t (1 : Fin 3) * 1024 + 1 * d.val = d.val; omega
  | ⟨2, _⟩ => show win0_1.index t (2 : Fin 3) * 1024 + 1 * k.val = k.val; omega

/-- What point `t` writes back is block `t` of the specification of the argument arrays as the region finds them. -/
theorem flushed_eq (c : Dev nD) (t : Fin cfg0.N) :
    (dats m 0 c).flushed 2 t
      = ((cfg0.win 2).blk t).view.read (Elt Ideal) (attend (V m c main_arg0) (V m c main_arg1)) := by
  rw [Value.flushed2]
  unfold out0_2
  rw [View.canon_unit_zero origin3]
  simp only [View.ld_unit_zero (S := S128x1024) origin2, View.ld_unit_zero (S := S1x1024x1024) origin3]
  obtain ⟨-, -, -, -, -, e5, e6, e7⟩ := block_indices t
  funext y
  show k0_pay1 (F := Ideal) (iblk m c 0 t) (iblk m c 1 t) y
      = attend (V m c main_arg0) (V m c main_arg1) (((cfg0.win 2).blk t).view.emb y)
  refine stored_eq (V m c main_arg0) (V m c main_arg1) (⟨t.val, t.isLt⟩ : Fin 128) (iblk m c 0 t) (iblk m c 1 t)
    (fun p k => query_block m c t p k) (fun d k => memory_block m c t d k) y _ ?_ ?_ ?_
  · show win0_2.index t (0 : Fin 3) * 1 + 1 * (y 0).val = t.val
    have hy : (y 0).val < 1 := (y 0).isLt
    omega
  · show win0_2.index t (1 : Fin 3) * 128 + 1 * (y 1).val = (y 1).val; omega
  · show win0_2.index t (2 : Fin 3) * 1024 + 1 * (y 2).val = (y 2).val; omega

/-- An index of the result array is in point `t`'s block iff each coordinate is in the block's range on its axis. -/
theorem mem_blk (t : Fin cfg0.N) (i : S128x128x1024.Idx) :
    i ∈ ((cfg0.win 2).blk t).view.set ↔ ∀ a : Fin 3, win0_2.index t a * S1x128x1024.size a ≤ (i a).val
      ∧ (i a).val < win0_2.index t a * S1x128x1024.size a + S1x128x1024.size a := by
  show i ∈ ((View.whole main_v0).slice (win0_2.rect t)).set ↔ _
  rw [View.set_slice_whole, Rect.mem_set_unit]
  exact Iff.rfl

/-- Every index of the result array lies in the block of the point numbered by its batch coordinate. -/
theorem cover (i : S128x128x1024.Idx) :
    ∃ t : Fin cfg0.N, (cfg0.win 2).flush t = true ∧ i ∈ ((cfg0.win 2).blk t).view.set := by
  have h0 : (i 0).val < 128 := (i 0).isLt
  have h1 : (i 1).val < 128 := (i 1).isLt
  have h2 : (i 2).val < 1024 := (i 2).isLt
  refine ⟨⟨(i 0).val, h0⟩, flush0_2 _, ?_⟩
  rw [mem_blk]
  obtain ⟨-, -, -, -, -, e5, e6, e7⟩ := block_indices ⟨(i 0).val, h0⟩
  intro a
  match a with
  | ⟨0, _⟩ =>
    show win0_2.index ⟨(i 0).val, h0⟩ (0 : Fin 3) * 1 ≤ (i 0).val ∧ (i 0).val < win0_2.index ⟨(i 0).val, h0⟩ (0 : Fin 3) * 1 + 1
    rw [e5]; show (i 0).val * 1 ≤ (i 0).val ∧ (i 0).val < (i 0).val * 1 + 1; omega
  | ⟨1, _⟩ =>
    show win0_2.index ⟨(i 0).val, h0⟩ (1 : Fin 3) * 128 ≤ (i 1).val ∧ (i 1).val < win0_2.index ⟨(i 0).val, h0⟩ (1 : Fin 3) * 128 + 128
    omega
  | ⟨2, _⟩ =>
    show win0_2.index ⟨(i 0).val, h0⟩ (2 : Fin 3) * 1024 ≤ (i 2).val ∧ (i 2).val < win0_2.index ⟨(i 0).val, h0⟩ (2 : Fin 3) * 1024 + 1024
    omega

/-- The result array after the run is the specification of the two argument arrays. -/
theorem final (c : Dev nD) :
    (dats m 0 c).arrAt 2 cfg0.N = attend (m ((c : Thread nD τ).loc main_arg0)) (m ((c : Thread nD τ).loc main_arg1)) :=
  (dats m 0 c).arrAt_eq_of_cover 2 (attend (V m c main_arg0) (V m c main_arg1)) (fun t _ => flushed_eq m c t) cover

/-- The kernel's run: every weakly fair execution ends with the result array at the specification of the
    arguments, and the arguments unchanged. -/
theorem run : θ_run defs (onTc (τ := τ) (main (F := Ideal))) ⟨m, fun _ => 0, ρ⟩ fun r => ∀ c : Dev nD,
      r.2.mem ((c : Thread nD τ).loc main_v0) = attend (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.lean ====
/-
  Contrastive attention, batch by batch: the kernel against its jnp reference, equal on the extended reals.

  For batch b and query row p the score against memory slot d is the inner product
  ∑ k, query (p, k) · memory (b, d, k); the weights are the softmax over the slots of the NEGATED scores, and
  the result at (b, p, j) is ∑ d, weight b p d · memory (b, d, j) (`Attend.attend`, Proof/Spec.lean).

  The kernel runs one grid point per batch: the whole query matrix and one batch's memory are staged, the
  body multiplies the query by the memory's transpose, subtracts the scores from zero, takes the row
  softmax (the row maximum joined once more with minus infinity) and multiplies the weights by the memory
  (Proof/KernelBody.lean); what point b writes back is block b of the specification, and the 128 blocks tile
  the result (Proof/Whole.lean). The reference forms memory · query, transposes, negates, takes the host's
  softmax along the last axis and contracts with the memory over the slots (Proof/RefValue.lean).
  The two differ only in the order of the factors of the score's products (the product of extended reals
  commutes) and in 0 - x against -x (equal at the infinities too); changes of float format are the identity at
  this instance. No finiteness is used: the precondition is never opened.
  The idealization rewrote no operation, so `preserves` is trivial; the three frames are the generated
  frame runs (the reference's frame is its generated run with the result dropped).
-/
import proofs.«125158_j26036091748420_1_alg».proof.Defs
import proofs.«125158_j26036091748420_1_alg».proof.Proof.Gen.Kernel
import proofs.«125158_j26036091748420_1_alg».proof.Proof.Gen.Kernel.Skeleton
import proofs.«125158_j26036091748420_1_alg».proof.Proof.Gen.Kernel.Launch
import proofs.«125158_j26036091748420_1_alg».proof.Proof.Gen.Kernel.Points
import proofs.«125158_j26036091748420_1_alg».proof.Proof.Gen.Kernel.Frame
import proofs.«125158_j26036091748420_1_alg».proof.Proof.Gen.KernelIdeal
import proofs.«125158_j26036091748420_1_alg».proof.Proof.Gen.KernelIdeal.Skeleton
import proofs.«125158_j26036091748420_1_alg».proof.Proof.Gen.KernelIdeal.Launch
import proofs.«125158_j26036091748420_1_alg».proof.Proof.Gen.KernelIdeal.Points
import proofs.«125158_j26036091748420_1_alg».proof.Proof.Gen.KernelIdeal.Frame
import proofs.«125158_j26036091748420_1_alg».proof.Proof.Gen.ReferenceIdeal
import proofs.«125158_j26036091748420_1_alg».proof.Proof.Gen.KernelIdeal.Value
import proofs.«125158_j26036091748420_1_alg».proof.Proof.Gen.ReferenceIdeal.Run
import proofs.«125158_j26036091748420_1_alg».proof.Proof.Gen.ReferenceIdeal.Read
import proofs.«125158_j26036091748420_1_alg».proof.Proof.Gen.Pre_finite_inputs
import proofs.«125158_j26036091748420_1_alg».proof.Proof.RefValue
import proofs.«125158_j26036091748420_1_alg».proof.Proof.Whole
import Idealize.ShloMosaic.Adequacy
import Idealize.ShloMosaic.Init

noncomputable section

namespace Cert.Proof

open Idealize.ShloMosaic Idealize.ShloMosaic.TcCoe Idealize.SL.Sem

/-- The word-level kernel runs and leaves its arguments unchanged: the generated frame run. -/
theorem frame_kernel : Cert.frame_Kernel := fun m ρ _ => Cert.Kernel.Gen.frame m ρ

/-- The idealized kernel runs and leaves its arguments unchanged: the generated frame run. -/
theorem frame_kernelIdeal : Cert.frame_KernelIdeal := fun m ρ _ => Cert.KernelIdeal.Gen.frame m ρ

/-- The idealized reference runs and leaves its arguments unchanged: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the two arguments both programs end with the result array at
    `Attend.attend` of the query and the memory. -/
theorem algebraic : Cert.algebraic_KernelIdeal_ReferenceIdeal := by
  intro m ρ m' ρ' _ hagree
  refine ⟨fun c => Cert.Attend.attend (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨?_, (h c).2⟩)
    (Cert.ReferenceIdeal.Value.run (F := Ideal) m' ρ')
  refine (h c).1.trans ((Cert.ReferenceIdeal.Read.val_main_v14_eq _ _).trans
    ((Cert.ReferenceIdeal.RefValue.reference_eq _ _).trans ?_))
  rw [(hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
